-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S5x64 : Shape := ⟨2, ![5, 64]⟩
abbrev S5 : Shape := ⟨1, ![5]⟩
abbrev S5x5 : Shape := ⟨2, ![5, 5]⟩
abbrev S64x5 : Shape := ⟨2, ![64, 5]⟩
abbrev S64 : Shape := ⟨1, ![64]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S5x64 : S_.BroadcastsInDim S5x64 (![] : Fin 0 → Fin S5x64.rank)
  reducesTo_S5x64_S_d0_1 : S5x64.ReducesTo [0, 1] S_
  bcast_S_S5 : S_.BroadcastsInDim S5 (![] : Fin 0 → Fin S5.rank)
  reducesTo_S5_S_d0 : S5.ReducesTo [0] S_
  bcast_S_S5x5 : S_.BroadcastsInDim S5x5 (![] : Fin 0 → Fin S5x5.rank)
  reducesTo_S5x5_S_d0_1 : S5x5.ReducesTo [0, 1] S_
  bcast_S_S64x5 : S_.BroadcastsInDim S64x5 (![] : Fin 0 → Fin S64x5.rank)
  reducesTo_S64x5_S_d0_1 : S64x5.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S5x5 .f32) (main_arg5 : FVec F S5 .f32) (main_arg6 : FVec F S64x5 .f32) (main_arg7 : FVec F S64 .f32) (main_v13 : IVec S_ 1) (main_v16 : IVec S5 1) : IVec S_ 1 :=
  let main_c_5 : IVec S_ 1 := constantI S_ 1 1#1
  let main_v17 : IVec S_ 1 := (fun x v => Host.reduce IntOp.andi x v reducesTo_S5_S_d0 h_S_) main_v16 main_c_5
  let main_v18 : IVec S_ 1 := andi main_v13 main_v17
  let main_v19 : FVec F S5x5 .f32 := Host.absf main_arg4
  let main_cst_6 : FVec F S_ .f32 := constant S_ .f32 0x7F800000#32
  let main_v20 : FVec F S5x5 .f32 := broadcastInDim S5x5 ![] bcast_S_S5x5 main_cst_6
  let main_v21 : IVec S5x5 1 := cmpf .olt main_v19 main_v20
  let main_c_7 : IVec S_ 1 := constantI S_ 1 1#1
  let main_v22 : IVec S_ 1 := (fun x v => Host.reduce IntOp.andi x v reducesTo_S5x5_S_d0_1 h_S_) main_v21 main_c_7
  let main_v23 : IVec S_ 1 := andi main_v18 main_v22
  let main_v24 : FVec F S5 .f32 := Host.absf main_arg5
  let main_cst_8 : FVec F S_ .f32 := constant S_ .f32 0x7F800000#32
  let main_v25 : FVec F S5 .f32 := broadcastInDim S5 ![] bcast_S_S5 main_cst_8
  let main_v26 : IVec S5 1 := cmpf .olt main_v24 main_v25
  let main_c_9 : IVec S_ 1 := constantI S_ 1 1#1
  let main_v27 : IVec S_ 1 := (fun x v => Host.reduce IntOp.andi x v reducesTo_S5_S_d0 h_S_) main_v26 main_c_9
  let main_v28 : IVec S_ 1 := andi main_v23 main_v27
  let main_v29 : FVec F S64x5 .f32 := Host.absf main_arg6
  let main_cst_10 : FVec F S_ .f32 := constant S_ .f32 0x7F800000#32
  let main_v30 : FVec F S64x5 .f32 := broadcastInDim S64x5 ![] bcast_S_S64x5 main_cst_10
  let main_v31 : IVec S64x5 1 := cmpf .olt main_v29 main_v30
  let main_c_11 : IVec S_ 1 := constantI S_ 1 1#1
  let main_v32 : IVec S_ 1 := (fun x v => Host.reduce IntOp.andi x v reducesTo_S64x5_S_d0_1 h_S_) main_v31 main_c_11
  let main_v33 : IVec S_ 1 := andi main_v28 main_v32
  fn_part2 (F := F) main_arg7 main_v33

def fn {F : FTy → Type} [FloatOps F] (main_arg0 : FVec F S2048x64 .f32) (main_arg1 : FVec F S2048x64 .f32) (main_arg2 : FVec F S5x64 .f32) (main_arg3 : FVec F S5 .f32) (main_arg4 : FVec F S5x5 .f32) (main_arg5 : FVec F S5 .f32) (main_arg6 : FVec F S64x5 .f32) (main_arg7 : FVec F S64 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S5x64 .f32 := Host.absf main_arg2
  let main_cst_2 : FVec F S_ .f32 := constant S_ .f32 0x7F800000#32
  let main_v10 : FVec F S5x64 .f32 := broadcastInDim S5x64 ![] bcast_S_S5x64 main_cst_2
  let main_v11 : IVec S5x64 1 := cmpf .olt main_v9 main_v10
  let main_c_3 : IVec S_ 1 := constantI S_ 1 1#1
  let main_v12 : IVec S_ 1 := (fun x v => Host.reduce IntOp.andi x v reducesTo_S5x64_S_d0_1 h_S_) main_v11 main_c_3
  let main_v13 : IVec S_ 1 := andi main_v8 main_v12
  let main_v14 : FVec F S5 .f32 := Host.absf main_arg3
  let main_cst_4 : FVec F S_ .f32 := constant S_ .f32 0x7F800000#32
  let main_v15 : FVec F S5 .f32 := broadcastInDim S5 ![] bcast_S_S5 main_cst_4
  let main_v16 : IVec S5 1 := cmpf .olt main_v14 main_v15
  fn_part1 (F := F) main_arg4 main_arg5 main_arg6 main_arg7 main_v13 main_v16
-- ==== Kernel.lean ====
abbrev S2048x64 : Shape := ⟨2, ![2048, 64]⟩
abbrev S5x64 : Shape := ⟨2, ![5, 64]⟩
abbrev S5 : Shape := ⟨1, ![5]⟩
abbrev S5x5 : Shape := ⟨2, ![5, 5]⟩
abbrev S64x5 : Shape := ⟨2, ![64, 5]⟩
abbrev S64 : Shape := ⟨1, ![64]⟩
abbrev S2048x5 : Shape := ⟨2, ![2048, 5]⟩
abbrev S1x5 : Shape := ⟨2, ![1, 5]⟩
abbrev S_ : Shape := ⟨0, ![]⟩
abbrev S1x64 : Shape := ⟨2, ![1, 64]⟩
abbrev S64x2048 : Shape := ⟨2, ![64, 2048]⟩
abbrev S2048x2048 : Shape := ⟨2, ![2048, 2048]⟩
abbrev S64x256 : Shape := ⟨2, ![64, 256]⟩
abbrev S64x512 : Shape := ⟨2, ![64, 512]⟩
abbrev S256x512 : Shape := ⟨2, ![256, 512]⟩
abbrev S8x256 : Shape := ⟨2, ![8, 256]⟩
abbrev S8x512 : Shape := ⟨2, ![8, 512]⟩
abbrev S8x1x512 : Shape := ⟨3, ![8, 1, 512]⟩
abbrev S8x256x1 : Shape := ⟨3, ![8, 256, 1]⟩
abbrev S8x256x512 : Shape := ⟨3, ![8, 256, 512]⟩

abbrev nBuf : Space → Nat
  | .hbm => 91
  | .vmem => 6
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S5x64, .f32⟩
  | .hbm, ⟨3, _⟩ => ⟨S5, .f32⟩
  | .hbm, ⟨4, _⟩ => ⟨S5x5, .f32⟩
  | .hbm, ⟨5, _⟩ => ⟨S5, .f32⟩
  | .hbm, ⟨6, _⟩ => ⟨S64x5, .f32⟩
  | .hbm, ⟨7, _⟩ => ⟨S64, .f32⟩
  | .hbm, ⟨8, _⟩ => ⟨S64x5, .f32⟩
  | .hbm, ⟨9, _⟩ => ⟨S2048x5, .f32⟩
  | .hbm, ⟨10, _⟩ => ⟨S1x5, .f32⟩
  | .hbm, ⟨11, _⟩ => ⟨S2048x5, .f32⟩
  | .hbm, ⟨12, _⟩ => ⟨S2048x5, .f32⟩
  | .hbm, ⟨13, _⟩ => ⟨S_, .f32⟩
  | .hbm, ⟨14, _⟩ => ⟨S2048x5, .f32⟩
  | .hbm, ⟨15, _⟩ => ⟨S2048x5, .f32⟩
  | .hbm, ⟨16, _⟩ => ⟨S5x5, .f32⟩
  | .hbm, ⟨17, _⟩ => ⟨S2048x5, .f32⟩
  | .hbm, ⟨18, _⟩ => ⟨S1x5, .f32⟩
  | .hbm, ⟨19, _⟩ => ⟨S2048x5, .f32⟩
  | .hbm, ⟨20, _⟩ => ⟨S2048x5, .f32⟩
  | .hbm, ⟨21, _⟩ => ⟨S_, .f32⟩
  | .hbm, ⟨22, _⟩ => ⟨S2048x5, .f32⟩
  | .hbm, ⟨23, _⟩ => ⟨S2048x5, .f32⟩
  | .hbm, ⟨24, _⟩ => ⟨S5x5, .f32⟩
  | .hbm, ⟨25, _⟩ => ⟨S2048x5, .f32⟩
  | .hbm, ⟨26, _⟩ => ⟨S1x5, .f32⟩
  | .hbm, ⟨27, _⟩ => ⟨S2048x5, .f32⟩
  | .hbm, ⟨28, _⟩ => ⟨S2048x5, .f32⟩
  | .hbm, ⟨29, _⟩ => ⟨S_, .f32⟩
  | .hbm, ⟨30, _⟩ => ⟨S2048x5, .f32⟩
  | .hbm, ⟨31, _⟩ => ⟨S2048x5, .f32⟩
  | .hbm, ⟨32, _⟩ => ⟨S5x5, .f32⟩
  | .hbm, ⟨33, _⟩ => ⟨S2048x5, .f32⟩
  | .hbm, ⟨34, _⟩ => ⟨S1x5, .f32⟩
  | .hbm, ⟨35, _⟩ => ⟨S2048x5, .f32⟩
  | .hbm, ⟨36, _⟩ => ⟨S2048x5, .f32⟩
  | .hbm, ⟨37, _⟩ => ⟨S_, .f32⟩
  | .hbm, ⟨38, _⟩ => ⟨S2048x5, .f32⟩
  | .hbm, ⟨39, _⟩ => ⟨S2048x5, .f32⟩
  | .hbm, ⟨40, _⟩ => ⟨S5x64, .f32⟩
  | .hbm, ⟨41, _⟩ => ⟨S2048x64, .f32⟩
  | .hbm, ⟨42, _⟩ => ⟨S1x64, .f32⟩
  | .hbm, ⟨43, _⟩ => ⟨S2048x64, .f32⟩
  | .hbm, ⟨44, _⟩ => ⟨S2048x64, .f32⟩
  | .hbm, ⟨45, _⟩ => ⟨S_, .f32⟩
  | .hbm, ⟨46, _⟩ => ⟨S2048x64, .f32⟩
  | .hbm, ⟨47, _⟩ => ⟨S2048x64, .f32⟩
  | .hbm, ⟨48, _⟩ => ⟨S64x5, .f32⟩
  | .hbm, ⟨49, _⟩ => ⟨S2048x5, .f32⟩
  | .hbm, ⟨50, _⟩ => ⟨S1x5, .f32⟩
  | .hbm, ⟨51, _⟩ => ⟨S2048x5, .f32⟩
  | .hbm, ⟨52, _⟩ => ⟨S2048x5, .f32⟩
  | .hbm, ⟨53, _⟩ => ⟨S_, .f32⟩
  | .hbm, ⟨54, _⟩ => ⟨S2048x5, .f32⟩
  | .hbm, ⟨55, _⟩ => ⟨S2048x5, .f32⟩
  | .hbm, ⟨56, _⟩ => ⟨S5x5, .f32⟩
  | .hbm, ⟨57, _⟩ => ⟨S2048x5, .f32⟩
  | .hbm, ⟨58, _⟩ => ⟨S1x5, .f32⟩
  | .hbm, ⟨59, _⟩ => ⟨S2048x5, .f32⟩
  | .hbm, ⟨60, _⟩ => ⟨S2048x5, .f32⟩
  | .hbm, ⟨61, _⟩ => ⟨S_, .f32⟩
  | .hbm, ⟨62, _⟩ => ⟨S2048x5, .f32⟩
  | .hbm, ⟨63, _⟩ => ⟨S2048x5, .f32⟩
  | .hbm, ⟨64, _⟩ => ⟨S5x5, .f32⟩
  | .hbm, ⟨65, _⟩ => ⟨S2048x5, .f32⟩
  | .hbm, ⟨66, _⟩ => ⟨S1x5, .f32⟩
  | .hbm, ⟨67, _⟩ => ⟨S2048x5, .f32⟩
  | .hbm, ⟨68, _⟩ => ⟨S2048x5, .f32⟩
  | .hbm, ⟨69, _⟩ => ⟨S_, .f32⟩
  | .hbm, ⟨70, _⟩ => ⟨S2048x5, .f32⟩
  | .hbm, ⟨71, _⟩ => ⟨S2048x5, .f32⟩
  | .hbm, ⟨72, _⟩ => ⟨S5x5, .f32⟩
  | .hbm, ⟨73, _⟩ => ⟨S2048x5, .f32⟩
  | .hbm, ⟨74, _⟩ => ⟨S1x5, .f32⟩
  | .hbm, ⟨75, _⟩ => ⟨S2048x5, .f32⟩
  | .hbm, ⟨76, _⟩ => ⟨S2048x5, .f32⟩
  | .hbm, ⟨77, _⟩ => ⟨S_, .f32⟩
  | .hbm, ⟨78, _⟩ => ⟨S2048x5, .f32⟩
  | .hbm, ⟨79, _⟩ => ⟨S2048x5, .f32⟩
  | .hbm, ⟨80, _⟩ => ⟨S5x64, .f32⟩
  | .hbm, ⟨81, _⟩ => ⟨S2048x64, .f32⟩
  | .hbm, ⟨82, _⟩ => ⟨S1x64, .f32⟩
  | .hbm, ⟨83, _⟩ => ⟨S2048x64, .f32⟩
  | .hbm, ⟨84, _⟩ => ⟨S2048x64, .f32⟩
  | .hbm, ⟨85, _⟩ => ⟨S_, .f32⟩
  | .hbm, ⟨86, _⟩ => ⟨S2048x64, .f32⟩
  | .hbm, ⟨87, _⟩ => ⟨S2048x64, .f32⟩
  | .hbm, ⟨88, _⟩ => ⟨S64x2048, .f32⟩
  | .hbm, ⟨89, _⟩ => ⟨S64x2048, .f32⟩
  | .hbm, ⟨90, _⟩ => ⟨S2048x2048, .f32⟩
  | .local _ .vmem, ⟨0, _⟩ => ⟨S64x256, .f32⟩
  | .local _ .vmem, ⟨1, _⟩ => ⟨S64x256, .f32⟩
  | .local _ .vmem, ⟨2, _⟩ => ⟨S64x512, .f32⟩
  | .local _ .vmem, ⟨3, _⟩ => ⟨S64x512, .f32⟩
  | .local _ .vmem, ⟨4, _⟩ => ⟨S256x512, .f32⟩
  | .local _ .vmem, ⟨5, _⟩ => ⟨S256x512, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call3_cst : Ref sig .tc := ⟨.hbm, 37, rfl⟩
abbrev main_call3_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call4_cst : Ref sig .tc := ⟨.hbm, 45, rfl⟩
abbrev main_call4_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call5_cst : Ref sig .tc := ⟨.hbm, 53, rfl⟩
abbrev main_call5_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call6_cst : Ref sig .tc := ⟨.hbm, 61, rfl⟩
abbrev main_call6_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call7_cst : Ref sig .tc := ⟨.hbm, 69, rfl⟩
abbrev main_call7_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call8_cst : Ref sig .tc := ⟨.hbm, 77, rfl⟩
abbrev main_call8_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call9_cst : Ref sig .tc := ⟨.hbm, 85, rfl⟩
abbrev main_call9_v0 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S5x64_S64x5_1_0 : S5x64.Transposes [1, 0] S64x5
  bcast_S5_S1x5_1 : S5.BroadcastsInDim S1x5 (![1] : Fin 1 → Fin S1x5.rank)
  bcast_S1x5_S2048x5_0_1 : S1x5.BroadcastsInDim S2048x5 (![0, 1] : Fin 2 → Fin S2048x5.rank)
  bcast_S_S2048x5 : S_.BroadcastsInDim S2048x5 (![] : Fin 0 → Fin S2048x5.rank)
  transposes_S5x5_S5x5_1_0 : S5x5.Transposes [1, 0] S5x5
  transposes_S64x5_S5x64_1_0 : S64x5.Transposes [1, 0] S5x64
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  bcast_S_S2048x64 : S_.BroadcastsInDim S2048x64 (![] : Fin 0 → Fin S2048x64.rank)
  transposes_S2048x64_S64x2048_1_0 : S2048x64.Transposes [1, 0] S64x2048
  inb_S64x256_S8x256_0_0 : ∀ a, (![0, 0] : Fin 2 → Nat) a + S8x256.size a ≤ S64x256.size a
  h_S8x256 : 0 < S8x256.numel
  shapeCasts_S8x256_S8x256 : S8x256.ShapeCasts S8x256
  inb_S64x512_S8x512_0_0 : ∀ a, (![0, 0] : Fin 2 → Nat) a + S8x512.size a ≤ S64x512.size a
  h_S8x512 : 0 < S8x512.numel
  shapeCasts_S8x512_S8x512 : S8x512.ShapeCasts S8x512
  shapeCasts_S8x512_S8x1x512 : S8x512.ShapeCasts S8x1x512
  shapeCasts_S8x256_S8x256x1 : S8x256.ShapeCasts S8x256x1
  broadcasts_S8x1x512_S8x256x512 : S8x1x512.Broadcasts S8x256x512
  broadcasts_S8x256x1_S8x256x512 : S8x256x1.Broadcasts S8x256x512
  reduces_S8x256x512_S256x512 : S8x256x512.Reduces [0] S256x512
  inb_S64x256_S8x256_8_0 : ∀ a, (![8, 0] : Fin 2 → Nat) a + S8x256.size a ≤ S64x256.size a
  inb_S64x512_S8x512_8_0 : ∀ a, (![8, 0] : Fin 2 → Nat) a + S8x512.size a ≤ S64x512.size a
  inb_S64x256_S8x256_16_0 : ∀ a, (![16, 0] : Fin 2 → Nat) a + S8x256.size a ≤ S64x256.size a
  inb_S64x512_S8x512_16_0 : ∀ a, (![16, 0] : Fin 2 → Nat) a + S8x512.size a ≤ S64x512.size a
  inb_S64x256_S8x256_24_0 : ∀ a, (![24, 0] : Fin 2 → Nat) a + S8x256.size a ≤ S64x256.size a
  inb_S64x512_S8x512_24_0 : ∀ a, (![24, 0] : Fin 2 → Nat) a + S8x512.size a ≤ S64x512.size a
  inb_S64x256_S8x256_32_0 : ∀ a, (![32, 0] : Fin 2 → Nat) a + S8x256.size a ≤ S64x256.size a
  inb_S64x512_S8x512_32_0 : ∀ a, (![32, 0] : Fin 2 → Nat) a + S8x512.size a ≤ S64x512.size a
  inb_S64x256_S8x256_40_0 : ∀ a, (![40, 0] : Fin 2 → Nat) a + S8x256.size a ≤ S64x256.size a
  inb_S64x512_S8x512_40_0 : ∀ a, (![40, 0] : Fin 2 → Nat) a + S8x512.size a ≤ S64x512.size a
  inb_S64x256_S8x256_48_0 : ∀ a, (![48, 0] : Fin 2 → Nat) a + S8x256.size a ≤ S64x256.size a
  inb_S64x512_S8x512_48_0 : ∀ a, (![48, 0] : Fin 2 → Nat) a + S8x512.size a ≤ S64x512.size a
  inb_S64x256_S8x256_56_0 : ∀ a, (![56, 0] : Fin 2 → Nat) a + S8x256.size a ≤ S64x256.size a
  inb_S64x512_S8x512_56_0 : ∀ a, (![56, 0] : Fin 2 → Nat) a + S8x512.size a ≤ S64x512.size a
  inb_S256x512_S256x512_0_0 : ∀ a, (![0, 0] : Fin 2 → Nat) a + S256x512.size a ≤ S256x512.size a
  h_S256x512 : 0 < S256x512.numel
  dot_S2048x64_S64x5_S2048x5_1_0_0_1_n_n_wf : DotDims.WF S2048x64 S64x5 S2048x5 [1] [0] [0] [1] [] []
  dot_S2048x5_S5x5_S2048x5_1_0_0_1_n_n_wf : DotDims.WF S2048x5 S5x5 S2048x5 [1] [0] [0] [1] [] []
  dot_S2048x5_S5x64_S2048x64_1_0_0_1_n_n_wf : DotDims.WF S2048x5 S5x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S64x2048.size a
  hwx0_0 : ∀ i : grid0.Coords, EltTy.bits .f32 = 32 ∨ (Rect.block (s := S64x2048) S64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x2048.size a
  hwx0_1 : ∀ i : grid0.Coords, EltTy.bits .f32 = 32 ∨ (Rect.block (s := S64x2048) S64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S2048x2048.size a
  hwx0_2 : ∀ i : grid0.Coords, EltTy.bits .f32 = 32 ∨ (Rect.block (s := S2048x2048) S256x512.size (cc0_transform_2 i) (hinb0_2 i)).WholeWords (EltTy.packing .f32)

variable [Facts₀]

def dot_S2048x64_S64x5_S2048x5_1_0_0_1_n_n : DotDims S2048x64 S64x5 S2048x5 where
  lhsContracting := [1]
  rhsContracting := [0]
  lhsNonContracting := [0]
  rhsNonContracting := [1]
  lhsBatch := []
  rhsBatch := []
  wf := dot_S2048x64_S64x5_S2048x5_1_0_0_1_n_n_wf
def dot_S2048x5_S5x5_S2048x5_1_0_0_1_n_n : DotDims S2048x5 S5x5 S2048x5 where
  lhsContracting := [1]
  rhsContracting := [0]
  lhsNonContracting := [0]
  rhsNonContracting := [1]
  lhsBatch := []
  rhsBatch := []
  wf := dot_S2048x5_S5x5_S2048x5_1_0_0_1_n_n_wf
def dot_S2048x5_S5x64_S2048x64_1_0_0_1_n_n : DotDims S2048x5 S5x64 S2048x64 where
  lhsContracting := [1]
  rhsContracting := [0]
  lhsNonContracting := [0]
  rhsNonContracting := [1]
  lhsBatch := []
  rhsBatch := []
  wf := dot_S2048x5_S5x64_S2048x64_1_0_0_1_n_n_wf

abbrev win0_0 : Pipeline.Window sig grid0 :=
  Pipeline.Window.ofSpec (Memref.whole main_v60) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v61) S64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v62) S256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x64 : Shape := ⟨2, ![2048, 64]⟩
abbrev S5x64 : Shape := ⟨2, ![5, 64]⟩
abbrev S5 : Shape := ⟨1, ![5]⟩
abbrev S5x5 : Shape := ⟨2, ![5, 5]⟩
abbrev S64x5 : Shape := ⟨2, ![64, 5]⟩
abbrev S64 : Shape := ⟨1, ![64]⟩
abbrev S2048x5 : Shape := ⟨2, ![2048, 5]⟩
abbrev S1x5 : Shape := ⟨2, ![1, 5]⟩
abbrev S_ : Shape := ⟨0, ![]⟩
abbrev S1x64 : Shape := ⟨2, ![1, 64]⟩
abbrev S1x2048x64 : Shape := ⟨3, ![1, 2048, 64]⟩
abbrev S2048x1x64 : Shape := ⟨3, ![2048, 1, 64]⟩
abbrev S2048x2048x64 : Shape := ⟨3, ![2048, 2048, 64]⟩
abbrev S2048x2048 : Shape := ⟨2, ![2048, 2048]⟩

abbrev nBuf : Space → Nat
  | .hbm => 99
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S5x64, .f32⟩
  | .hbm, ⟨3, _⟩ => ⟨S5, .f32⟩
  | .hbm, ⟨4, _⟩ => ⟨S5x5, .f32⟩
  | .hbm, ⟨5, _⟩ => ⟨S5, .f32⟩
  | .hbm, ⟨6, _⟩ => ⟨S64x5, .f32⟩
  | .hbm, ⟨7, _⟩ => ⟨S64, .f32⟩
  | .hbm, ⟨8, _⟩ => ⟨S64x5, .f32⟩
  | .hbm, ⟨9, _⟩ => ⟨S2048x5, .f32⟩
  | .hbm, ⟨10, _⟩ => ⟨S1x5, .f32⟩
  | .hbm, ⟨11, _⟩ => ⟨S2048x5, .f32⟩
  | .hbm, ⟨12, _⟩ => ⟨S2048x5, .f32⟩
  | .hbm, ⟨13, _⟩ => ⟨S_, .f32⟩
  | .hbm, ⟨14, _⟩ => ⟨S2048x5, .f32⟩
  | .hbm, ⟨15, _⟩ => ⟨S2048x5, .f32⟩
  | .hbm, ⟨16, _⟩ => ⟨S5x5, .f32⟩
  | .hbm, ⟨17, _⟩ => ⟨S2048x5, .f32⟩
  | .hbm, ⟨18, _⟩ => ⟨S1x5, .f32⟩
  | .hbm, ⟨19, _⟩ => ⟨S2048x5, .f32⟩
  | .hbm, ⟨20, _⟩ => ⟨S2048x5, .f32⟩
  | .hbm, ⟨21, _⟩ => ⟨S_, .f32⟩
  | .hbm, ⟨22, _⟩ => ⟨S2048x5, .f32⟩
  | .hbm, ⟨23, _⟩ => ⟨S2048x5, .f32⟩
  | .hbm, ⟨24, _⟩ => ⟨S5x5, .f32⟩
  | .hbm, ⟨25, _⟩ => ⟨S2048x5, .f32⟩
  | .hbm, ⟨26, _⟩ => ⟨S1x5, .f32⟩
  | .hbm, ⟨27, _⟩ => ⟨S2048x5, .f32⟩
  | .hbm, ⟨28, _⟩ => ⟨S2048x5, .f32⟩
  | .hbm, ⟨29, _⟩ => ⟨S_, .f32⟩
  | .hbm, ⟨30, _⟩ => ⟨S2048x5, .f32⟩
  | .hbm, ⟨31, _⟩ => ⟨S2048x5, .f32⟩
  | .hbm, ⟨32, _⟩ => ⟨S5x5, .f32⟩
  | .hbm, ⟨33, _⟩ => ⟨S2048x5, .f32⟩
  | .hbm, ⟨34, _⟩ => ⟨S1x5, .f32⟩
  | .hbm, ⟨35, _⟩ => ⟨S2048x5, .f32⟩
  | .hbm, ⟨36, _⟩ => ⟨S2048x5, .f32⟩
  | .hbm, ⟨37, _⟩ => ⟨S_, .f32⟩
  | .hbm, ⟨38, _⟩ => ⟨S2048x5, .f32⟩
  | .hbm, ⟨39, _⟩ => ⟨S2048x5, .f32⟩
  | .hbm, ⟨40, _⟩ => ⟨S5x64, .f32⟩
  | .hbm, ⟨41, _⟩ => ⟨S2048x64, .f32⟩
  | .hbm, ⟨42, _⟩ => ⟨S1x64, .f32⟩
  | .hbm, ⟨43, _⟩ => ⟨S2048x64, .f32⟩
  | .hbm, ⟨44, _⟩ => ⟨S2048x64, .f32⟩
  | .hbm, ⟨45, _⟩ => ⟨S_, .f32⟩
  | .hbm, ⟨46, _⟩ => ⟨S2048x64, .f32⟩
  | .hbm, ⟨47, _⟩ => ⟨S2048x64, .f32⟩
  | .hbm, ⟨48, _⟩ => ⟨S64x5, .f32⟩
  | .hbm, ⟨49, _⟩ => ⟨S2048x5, .f32⟩
  | .hbm, ⟨50, _⟩ => ⟨S1x5, .f32⟩
  | .hbm, ⟨51, _⟩ => ⟨S2048x5, .f32⟩
  | .hbm, ⟨52, _⟩ => ⟨S2048x5, .f32⟩
  | .hbm, ⟨53, _⟩ => ⟨S_, .f32⟩
  | .hbm, ⟨54, _⟩ => ⟨S2048x5, .f32⟩
  | .hbm, ⟨55, _⟩ => ⟨S2048x5, .f32⟩
  | .hbm, ⟨56, _⟩ => ⟨S5x5, .f32⟩
  | .hbm, ⟨57, _⟩ => ⟨S2048x5, .f32⟩
  | .hbm, ⟨58, _⟩ => ⟨S1x5, .f32⟩
  | .hbm, ⟨59, _⟩ => ⟨S2048x5, .f32⟩
  | .hbm, ⟨60, _⟩ => ⟨S2048x5, .f32⟩
  | .hbm, ⟨61, _⟩ => ⟨S_, .f32⟩
  | .hbm, ⟨62, _⟩ => ⟨S2048x5, .f32⟩
  | .hbm, ⟨63, _⟩ => ⟨S2048x5, .f32⟩
  | .hbm, ⟨64, _⟩ => ⟨S5x5, .f32⟩
  | .hbm, ⟨65, _⟩ => ⟨S2048x5, .f32⟩
  | .hbm, ⟨66, _⟩ => ⟨S1x5, .f32⟩
  | .hbm, ⟨67, _⟩ => ⟨S2048x5, .f32⟩
  | .hbm, ⟨68, _⟩ => ⟨S2048x5, .f32⟩
  | .hbm, ⟨69, _⟩ => ⟨S_, .f32⟩
  | .hbm, ⟨70, _⟩ => ⟨S2048x5, .f32⟩
  | .hbm, ⟨71, _⟩ => ⟨S2048x5, .f32⟩
  | .hbm, ⟨72, _⟩ => ⟨S5x5, .f32⟩
  | .hbm, ⟨73, _⟩ => ⟨S2048x5, .f32⟩
  | .hbm, ⟨74, _⟩ => ⟨S1x5, .f32⟩
  | .hbm, ⟨75, _⟩ => ⟨S2048x5, .f32⟩
  | .hbm, ⟨76, _⟩ => ⟨S2048x5, .f32⟩
  | .hbm, ⟨77, _⟩ => ⟨S_, .f32⟩
  | .hbm, ⟨78, _⟩ => ⟨S2048x5, .f32⟩
  | .hbm, ⟨79, _⟩ => ⟨S2048x5, .f32⟩
  | .hbm, ⟨80, _⟩ => ⟨S5x64, .f32⟩
  | .hbm, ⟨81, _⟩ => ⟨S2048x64, .f32⟩
  | .hbm, ⟨82, _⟩ => ⟨S1x64, .f32⟩
  | .hbm, ⟨83, _⟩ => ⟨S2048x64, .f32⟩
  | .hbm, ⟨84, _⟩ => ⟨S2048x64, .f32⟩
  | .hbm, ⟨85, _⟩ => ⟨S_, .f32⟩
  | .hbm, ⟨86, _⟩ => ⟨S2048x64, .f32⟩
  | .hbm, ⟨87, _⟩ => ⟨S2048x64, .f32⟩
  | .hbm, ⟨88, _⟩ => ⟨S1x2048x64, .f32⟩
  | .hbm, ⟨89, _⟩ => ⟨S2048x1x64, .f32⟩
  | .hbm, ⟨90, _⟩ => ⟨S2048x2048x64, .f32⟩
  | .hbm, ⟨91, _⟩ => ⟨S2048x2048x64, .f32⟩
  | .hbm, ⟨92, _⟩ => ⟨S2048x2048x64, .f32⟩
  | .hbm, ⟨93, _⟩ => ⟨S_, .f32⟩
  | .hbm, ⟨94, _⟩ => ⟨S2048x2048x64, .f32⟩
  | .hbm, ⟨95, _⟩ => ⟨S2048x2048x64, .f32⟩
  | .hbm, ⟨96, _⟩ => ⟨S2048x2048x64, .f32⟩
  | .hbm, ⟨97, _⟩ => ⟨S_, .f32⟩
  | .hbm, ⟨98, _⟩ => ⟨S2048x2048, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call3_cst : Ref sig .tc := ⟨.hbm, 37, rfl⟩
abbrev main_call3_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call4_cst : Ref sig .tc := ⟨.hbm, 45, rfl⟩
abbrev main_call4_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call5_cst : Ref sig .tc := ⟨.hbm, 53, rfl⟩
abbrev main_call5_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call6_cst : Ref sig .tc := ⟨.hbm, 61, rfl⟩
abbrev main_call6_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call7_cst : Ref sig .tc := ⟨.hbm, 69, rfl⟩
abbrev main_call7_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call8_cst : Ref sig .tc := ⟨.hbm, 77, rfl⟩
abbrev main_call8_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call9_cst : Ref sig .tc := ⟨.hbm, 85, rfl⟩
abbrev main_call9_v0 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call10_cst : Ref sig .tc := ⟨.hbm, 93, rfl⟩
abbrev main_call10_v0 : Ref sig .tc := ⟨.hbm, 94, rfl⟩
abbrev main_v65 : Ref sig .tc := ⟨.hbm, 95, rfl⟩
abbrev main_v66 : Ref sig .tc := ⟨.hbm, 96, rfl⟩
abbrev main_cst : Ref sig .tc := ⟨.hbm, 97, rfl⟩
abbrev main_v67 : Ref sig .tc := ⟨.hbm, 98, rfl⟩

abbrev nD : Nat := 1
abbrev τ : Topo := Topo.v7x

variable {F : FTy → Type} [FloatOps F]

class Facts₀ : Prop where
  transposes_S5x64_S64x5_1_0 : S5x64.Transposes [1, 0] S64x5
  bcast_S5_S1x5_1 : S5.BroadcastsInDim S1x5 (![1] : Fin 1 → Fin S1x5.rank)
  bcast_S1x5_S2048x5_0_1 : S1x5.BroadcastsInDim S2048x5 (![0, 1] : Fin 2 → Fin S2048x5.rank)
  bcast_S_S2048x5 : S_.BroadcastsInDim S2048x5 (![] : Fin 0 → Fin S2048x5.rank)
  transposes_S5x5_S5x5_1_0 : S5x5.Transposes [1, 0] S5x5
  transposes_S64x5_S5x64_1_0 : S64x5.Transposes [1, 0] S5x64
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  bcast_S_S2048x64 : S_.BroadcastsInDim S2048x64 (![] : Fin 0 → Fin S2048x64.rank)
  bcast_S2048x64_S1x2048x64_1_2 : S2048x64.BroadcastsInDim S1x2048x64 (![1, 2] : Fin 2 → Fin S1x2048x64.rank)
  bcast_S2048x64_S2048x1x64_0_2 : S2048x64.BroadcastsInDim S2048x1x64 (![0, 2] : Fin 2 → Fin S2048x1x64.rank)
  bcast_S1x2048x64_S2048x2048x64_0_1_2 : S1x2048x64.BroadcastsInDim S2048x2048x64 (![0, 1, 2] : Fin 3 → Fin S2048x2048x64.rank)
  bcast_S2048x1x64_S2048x2048x64_0_1_2 : S2048x1x64.BroadcastsInDim S2048x2048x64 (![0, 1, 2] : Fin 3 → Fin S2048x2048x64.rank)
  bcast_S_S2048x2048x64 : S_.BroadcastsInDim S2048x2048x64 (![] : Fin 0 → Fin S2048x2048x64.rank)
  reducesTo_S2048x2048x64_S2048x2048_d2 : S2048x2048x64.ReducesTo [2] S2048x2048
  h_S_ : 0 < S_.numel
  dot_S2048x64_S64x5_S2048x5_1_0_0_1_n_n_wf : DotDims.WF S2048x64 S64x5 S2048x5 [1] [0] [0] [1] [] []
  dot_S2048x5_S5x5_S2048x5_1_0_0_1_n_n_wf : DotDims.WF S2048x5 S5x5 S2048x5 [1] [0] [0] [1] [] []
  dot_S2048x5_S5x64_S2048x64_1_0_0_1_n_n_wf : DotDims.WF S2048x5 S5x64 S2048x64 [1] [0] [0] [1] [] []

variable [Facts₀]

def dot_S2048x64_S64x5_S2048x5_1_0_0_1_n_n : DotDims S2048x64 S64x5 S2048x5 where
  lhsContracting := [1]
  rhsContracting := [0]
  lhsNonContracting := [0]
  rhsNonContracting := [1]
  lhsBatch := []
  rhsBatch := []
  wf := dot_S2048x64_S64x5_S2048x5_1_0_0_1_n_n_wf
def dot_S2048x5_S5x5_S2048x5_1_0_0_1_n_n : DotDims S2048x5 S5x5 S2048x5 where
  lhsContracting := [1]
  rhsContracting := [0]
  lhsNonContracting := [0]
  rhsNonContracting := [1]
  lhsBatch := []
  rhsBatch := []
  wf := dot_S2048x5_S5x5_S2048x5_1_0_0_1_n_n_wf
def dot_S2048x5_S5x64_S2048x64_1_0_0_1_n_n : DotDims S2048x5 S5x64 S2048x64 where
  lhsContracting := [1]
  rhsContracting := [0]
  lhsNonContracting := [0]
  rhsNonContracting := [1]
  lhsBatch := []
  rhsBatch := []
  wf := dot_S2048x5_S5x64_S2048x64_1_0_0_1_n_n_wf

class Facts : Prop extends Facts₀ where

variable [Facts]
-- ==== Proof.LibLayoutRank3.lean ====
/-
  Three re-layings between rank 2 and rank 3, read at an index given by its coordinates.

  A product `p[i, j, l] = u[i, j] · v[j, l]` over a common three-axis index set is formed by giving `u` a trailing axis of
  extent one and `v` a leading axis of extent one, then repeating each along its new axis. Read at `(i, j, l)`:
    * `[a, b] → [a, b, 1]`, a cast: the entry at `(i, j, 0)` is the operand's at `(i, j)` (same row-major position);
    * `[a, b, 1] → [a, b, c]`, a broadcast: the entry at `(i, j, l)` is the operand's at `(i, j, 0)`;
    * `[1, b, c] → [a, b, c]`, a broadcast: the entry at `(i, j, l)` is the operand's at `(0, j, l)`.
  (The cast `[a, b] → [1, a, b]` is the library's `shapeCast_ab_1ab_apply`.) The extents are arbitrary naturals; on an axis
  whose extent happens to be one the only coordinate is 0, which is what a broadcast reads there anyway.
-/
import Idealize.ShloMosaic.Lib.Pipeline.Value
import Idealize.ShloMosaic.Lib.ValueIdx

namespace Cert.LayoutRank3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, l)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, l)`, the operand at `(0, j, l)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (l : Fin c) :
    broadcastTo ⟨3, ![a, b, c]⟩ v h (ix3 i j l) = v (ix3 (0 : Fin 1) j l) := by
  refine broadcastTo_apply v h (ix3 i j l) (ix3 (0 : Fin 1) j l) fun ax => ?_
  match ax with
  | ⟨0, _⟩ => rfl
  | ⟨1, _⟩ =>
    show j.val = if b = 1 then 0 else j.val
    split
    · have := j.isLt; omega
    · rfl
  | ⟨2, _⟩ =>
    show l.val = if c = 1 then 0 else l.val
    split
    · have := l.isLt; omega
    · rfl

end Cert.LayoutRank3
-- ==== Proof.LibMiddleUnitAxis.lean ====
/-
  A general layout lemma: a unit axis inserted in the MIDDLE of a rank-2 shape.
-/
import Idealize.ShloMosaic.Lib.Pipeline.Value
import Idealize.ShloMosaic.Lib.ValueIdx

namespace Idealize.ShloMosaic.ValueIdx

variable {α : Type}

/-- An `[a, b]` array cast to `[a, 1, b]` reads, at `(i, u, j)`, the operand at `(i, j)`, whatever the unit
    coordinate `u`: both indices have row-major position `i · b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Idealize.ShloMosaic.ValueIdx
-- ==== Proof.LibOuterPair.lean ====
/-
  The two halves of an outer pairing `x[:, :, None] ∘ x[:, None, :]`, read at an index given by its coordinates.

  A rank-2 array `A` of extents `[a, b]` enters an all-pairs computation over `[a, b, b]` twice: once with a trailing unit axis,
  repeated along it, so that position `(r, i, j)` reads `A (r, i)`; once with a unit axis in the middle, repeated along it, so that
  position `(r, i, j)` reads `A (r, j)`. Also here: the broadcast `[a, 1, c] → [a, b, c]` by itself, and a rank-3 array whose
  three extents are one cast to the rank-2 array of the same kind.
-/
import proofs.«180766_j28295244546074_2_alg».proof.Proof.LibLayoutRank3
import proofs.«180766_j28295244546074_2_alg».proof.Proof.LibMiddleUnitAxis
import Idealize.ShloMosaic.Lib.Pipeline.Value
import Idealize.ShloMosaic.Lib.ValueIdx

namespace Cert.OuterPair

open Idealize.ShloMosaic Idealize.ShloMosaic.ValueIdx Cert.LayoutRank3

variable {α : Type}

/-- An `[a, 1, c]` array broadcast to `[a, b, c]` reads, at `(i, j, l)`, the operand at `(i, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

/-- The left half of the pairing: `A` with a trailing unit axis, repeated along it, reads `A (r, i)` at `(r, i, j)`. -/
theorem left_apply {a b c : ℕ} (A : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (r : Fin a) (i : Fin b) (j : Fin c) :
    broadcastTo ⟨3, ![a, b, c]⟩ (shapeCast ⟨3, ![a, b, 1]⟩ A h) h' (ix3 r i j) = A (ix2 r i) :=
  (broadcastTo_ab1_abc_apply _ h' r i j).trans (shapeCast_ab_ab1_apply A h r i 0)

/-- The right half of the pairing: `A` with a unit axis in the middle, repeated along it, reads `A (r, j)` at `(r, i, j)`. -/
theorem right_apply {a b c : ℕ} (A : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (r : Fin a) (i : Fin b) (j : Fin c) :
    broadcastTo ⟨3, ![a, b, c]⟩ (shapeCast ⟨3, ![a, 1, c]⟩ A h) h' (ix3 r i j) = A (ix2 r j) :=
  (broadcastTo_a1c_abc_apply _ h' r i j).trans (shapeCast_ab_a1b_apply A h r 0 j)

/-- A `[1, 1, 1]` array cast to `[1, 1]`: the one entry. -/
theorem shapeCast_111_11_apply (x : (⟨3, ![1, 1, 1]⟩ : Shape).Idx → α)
    (h : (⟨3, ![1, 1, 1]⟩ : Shape).ShapeCasts ⟨2, ![1, 1]⟩) :
    shapeCast ⟨2, ![1, 1]⟩ x h (ix2 (0 : Fin 1) (0 : Fin 1)) = x (ix3 (0 : Fin 1) (0 : Fin 1) (0 : Fin 1)) :=
  shapeCast_apply x h _ _ (by rw [Shape.rowMajor_val_three, Shape.rowMajor_val_two]; rfl)

end Cert.OuterPair
-- ==== Proof.PairwiseSpec.lean ====
/-
  The pairwise stage as ONE function of the two projected arrays, and the law that joins the two arrangements of its sum.

  For projected arrays `tx`, `ty` of extents [2048, 64], entry `(n, m)` of the result is
      ∑ d < 64, (max (ty[m, d] - tx[n, d]) 0)²
  on the extended reals. One program adds the 64 terms to an initial zero in a single sum. The other walks the features
  eight at a time: each of eight chunks is summed by itself and added to an accumulator that starts at zero. Addition of
  extended reals is commutative and associative with neutral element 0, at the infinities too, so the two arrangements
  agree and nothing has to be finite: feature `d` is the pair (chunk `k`, position `c`) with `d = 8·k + c`.
-/
import Idealize.ShloMosaic.PureOps.Ideal
import Idealize.ShloMosaic.Lib.ValueIdx

noncomputable section

open scoped BigOperators

namespace Cert.PairSq

open Idealize.ShloMosaic Idealize.ShloMosaic.ValueIdx

/-- The square of the positive part of a difference: `(max (u - v) 0)²`. -/
def sqPos (u v : EReal) : EReal := max (u - v) 0 * max (u - v) 0

/-- Feature `8·k + c`: position `c` of chunk `k`. -/
def feat (k c : Fin 8) : Fin 64 := ⟨8 * k.val + c.val, by have := k.isLt; have := c.isLt; omega⟩

@[simp] theorem feat_val (k c : Fin 8) : (feat k c).val = 8 * k.val + c.val := rfl

/-- The 64 features are the 8 × 8 pairs (chunk, position). -/
def featEquiv : Fin 8 × Fin 8 ≃ Fin 64 where
  toFun p := feat p.1 p.2
  invFun d := (⟨d.val / 8, by have := d.isLt; omega⟩, ⟨d.val % 8, by omega⟩)
  left_inv p := by
    obtain ⟨k, c⟩ := p
    have hk := k.isLt; have hc := c.isLt
    refine Prod.ext (Fin.ext ?_) (Fin.ext ?_)
    · show (8 * k.val + c.val) / 8 = k.val; omega
    · show (8 * k.val + c.val) % 8 = c.val; omega
  right_inv d := by
    apply Fin.ext
    show 8 * (d.val / 8) + d.val % 8 = d.val
    omega

/-- A sum over the 64 features is the sum over the chunks of each chunk's sum. -/
theorem sum_features (f : Fin 64 → EReal) : ∑ d : Fin 64, f d = ∑ k : Fin 8, ∑ c : Fin 8, f (feat k c) := by
  rw [← Fintype.sum_prod_type' (fun k c => f (feat k c))]
  exact (Fintype.sum_equiv featEquiv (fun p => f (feat p.1 p.2)) f (fun _ => rfl)).symm

/-- The accumulator's arrangement: eight chunk sums added one after the other to zero give the initial zero plus the
    single sum over all 64 features. -/
theorem chunks_eq_sum (f : Fin 64 → EReal) :
    0 + (∑ c : Fin 8, f (feat 0 c)) + (∑ c : Fin 8, f (feat 1 c)) + (∑ c : Fin 8, f (feat 2 c)) + (∑ c : Fin 8, f (feat 3 c))
      + (∑ c : Fin 8, f (feat 4 c)) + (∑ c : Fin 8, f (feat 5 c)) + (∑ c : Fin 8, f (feat 6 c)) + (∑ c : Fin 8, f (feat 7 c))
    = 0 + ∑ d : Fin 64, f d := by
  rw [sum_features f, Fin.sum_univ_eight (fun k => ∑ c : Fin 8, f (feat k c))]
  simp only [zero_add]

/-- The pairwise stage: entry `(n, m)` from row `n` of `tx` and row `m` of `ty`. -/
def pairSq (tx ty : (⟨2, ![2048, 64]⟩ : Shape).Idx → EReal) : (⟨2, ![2048, 2048]⟩ : Shape).Idx → EReal :=
  fun i => 0 + ∑ d : Fin 64, sqPos (ty (ix2 (i 1) d)) (tx (ix2 (i 0) d))

end Cert.PairSq

end
-- ==== Proof.ChunkSum.lean ====
/-
  One chunk of the pairwise stage, read at an entry.

  A chunk holds eight features of a column block of `ty` (an [8, 512] array `P`) and of a column block of `tx` (an [8, 256]
  array `Q`). The body pairs them over [8, 256, 512] — position `(c, p, q)` holds `P[c, q] - Q[c, p]` —, keeps the positive
  part, squares it, and adds up the leading axis. So entry `(p, q)` of the chunk's result is
      ∑ c < 8, (max (P[c, q] - Q[c, p]) 0)².
  The source index of a sum over the leading axis of a rank-3 array, over the result index `(p, q)` at coordinate `c`, is
  `(c, p, q)`; the two halves of the pairing are read by the outer-pairing lemmas; the identity casts change nothing.
-/
import proofs.«180766_j28295244546074_2_alg».proof.Proof.LibOuterPair
import proofs.«180766_j28295244546074_2_alg».proof.Proof.PairwiseSpec
import Idealize.ShloMosaic.PureOps.Ideal.Laws
import Idealize.ShloMosaic.Lib.ValueIdx
import Idealize.ShloMosaic.Lib.Pipeline.Value

noncomputable section

open scoped BigOperators

namespace Cert.PairSq

open Idealize.ShloMosaic Idealize.ShloMosaic.ValueIdx

/-- Over the result index `(p, q)`, the source index of a sum over the LEADING axis at coordinate `c` is `(c, p, q)`. -/
theorem lift_leading {a b n : ℕ} (h : (⟨3, ![n, a, b]⟩ : Shape).Reduces [(0 : Fin 3)] ⟨2, ![a, b]⟩)
    (p : Fin a) (q : Fin b) (c : Fin n) :
    h.lift (ix2 p q) c = ix3 c p q := by
  funext d
  apply Fin.ext
  show h.liftVal (ix2 p q) c.val d = (ix3 c p q d).val
  match d with
  | ⟨0, _⟩ => rfl
  | ⟨1, _⟩ => rfl
  | ⟨2, _⟩ => rfl

/-- Entry `(p, q)` of one chunk: the sum over the chunk's eight features of the squared positive part of
    `P[c, q] - Q[c, p]`. -/
theorem chunk_apply (P : Vec Ideal ⟨2, ![8, 512]⟩ .f32) (Q : Vec Ideal ⟨2, ![8, 256]⟩ .f32)
    (h1 : (⟨2, ![8, 512]⟩ : Shape).ShapeCasts ⟨2, ![8, 512]⟩) (h2 : (⟨2, ![8, 512]⟩ : Shape).ShapeCasts ⟨3, ![8, 1, 512]⟩)
    (h3 : (⟨3, ![8, 1, 512]⟩ : Shape).Broadcasts ⟨3, ![8, 256, 512]⟩)
    (h4 : (⟨2, ![8, 256]⟩ : Shape).ShapeCasts ⟨2, ![8, 256]⟩) (h5 : (⟨2, ![8, 256]⟩ : Shape).ShapeCasts ⟨3, ![8, 256, 1]⟩)
    (h6 : (⟨3, ![8, 256, 1]⟩ : Shape).Broadcasts ⟨3, ![8, 256, 512]⟩)
    (hr : (⟨3, ![8, 256, 512]⟩ : Shape).Reduces [(0 : Fin 3)] ⟨2, ![256, 512]⟩)
    (hφ : FKind.Formats .f32) (hacc : (0x00000000#32 : BitVec 32) = FKind.add.neutral .f32 hφ)
    (p : Fin 256) (q : Fin 512) :
    multiReduction (F := Ideal) .add [(0 : Fin 3)] ⟨2, ![256, 512]⟩
        (mulf
          (maximumf (subf (broadcastTo ⟨3, ![8, 256, 512]⟩ (shapeCast ⟨3, ![8, 1, 512]⟩ (shapeCast ⟨2, ![8, 512]⟩ P h1) h2) h3)
              (broadcastTo ⟨3, ![8, 256, 512]⟩ (shapeCast ⟨3, ![8, 256, 1]⟩ (shapeCast ⟨2, ![8, 256]⟩ Q h4) h5) h6))
            (broadcast ⟨3, ![8, 256, 512]⟩ (Scalar.ofBits .f32 0x00000000#32)))
          (maximumf (subf (broadcastTo ⟨3, ![8, 256, 512]⟩ (shapeCast ⟨3, ![8, 1, 512]⟩ (shapeCast ⟨2, ![8, 512]⟩ P h1) h2) h3)
              (broadcastTo ⟨3, ![8, 256, 512]⟩ (shapeCast ⟨3, ![8, 256, 1]⟩ (shapeCast ⟨2, ![8, 256]⟩ Q h4) h5) h6))
            (broadcast ⟨3, ![8, 256, 512]⟩ (Scalar.ofBits .f32 0x00000000#32))))
        0x00000000#32 hr hφ hacc (ix2 p q)
      = ∑ c : Fin 8, sqPos (P (ix2 c q)) (Q (ix2 c p)) := by
  rw [Ideal.multiReduction_add_single]
  refine Finset.sum_congr rfl fun c _ => ?_
  rw [lift_leading hr p q c, shapeCast_self P h1, shapeCast_self Q h4]
  show max (broadcastTo ⟨3, ![8, 256, 512]⟩ (shapeCast ⟨3, ![8, 1, 512]⟩ P h2) h3 (ix3 c p q)
        - broadcastTo ⟨3, ![8, 256, 512]⟩ (shapeCast ⟨3, ![8, 256, 1]⟩ Q h5) h6 (ix3 c p q)) (Ideal.ofBits .f32 0x00000000#32)
      * max (broadcastTo ⟨3, ![8, 256, 512]⟩ (shapeCast ⟨3, ![8, 1, 512]⟩ P h2) h3 (ix3 c p q)
        - broadcastTo ⟨3, ![8, 256, 512]⟩ (shapeCast ⟨3, ![8, 256, 1]⟩ Q h5) h6 (ix3 c p q)) (Ideal.ofBits .f32 0x00000000#32)
      = sqPos (P (ix2 c q)) (Q (ix2 c p))
  rw [Cert.OuterPair.right_apply P h2 h3 c p q, Cert.OuterPair.left_apply Q h5 h6 c p q, Ideal.ofBits_zero_f32]
  rfl

end Cert.PairSq

end
-- ==== Proof.BlockEntry.lean ====
/-
  What the body leaves in its output block, entry by entry.

  The body reads its two input blocks — 64 features by 256 columns of `tx`'s transpose, 64 features by 512 columns of
  `ty`'s — eight features at a time: chunk `k` is rows `8·k … 8·k + 7` of each. Each chunk's eight squared positive parts
  are summed and the chunk sums are added, one after the other, to an accumulator that starts at zero; the accumulator is
  stored whole. So entry `(p, q)` of the block is
      0 + ∑ d < 64, (max (x1[d, q] - x0[d, p]) 0)²
  — the eight chunk sums regrouped into the one sum over the features.
-/
import proofs.«180766_j28295244546074_2_alg».proof.Proof.Gen.KernelIdeal.Value
import proofs.«180766_j28295244546074_2_alg».proof.Proof.ChunkSum
import Idealize.ShloMosaic.PureOps.Ideal.Laws
import Idealize.ShloMosaic.Lib.ValueIdx

set_option maxRecDepth 16384

noncomputable section

open scoped BigOperators

namespace Cert.KernelIdeal.BlockEntry

open Cert.KernelIdeal Cert.KernelIdeal.Gen Cert.PairSq
open Idealize.ShloMosaic Idealize.ShloMosaic.ValueIdx

/-- A load of eight rows from row `o = 8·k` of a 64-row block reads, at `(c, j)`, the block at `(8·k + c, j)`. -/
theorem ld_rows {n o : ℕ} (X : Vec Ideal ⟨2, ![64, n]⟩ .f32) (k : Fin 8) (ho : o = 8 * k.val)
    (inb : ∀ a, (![o, 0] : Fin 2 → ℕ) a + (![8, n] : Fin 2 → ℕ) a ≤ (⟨2, ![64, n]⟩ : Shape).size a) (c : Fin 8) (j : Fin n) :
    (View.ld X (Rect.unit (s := ⟨2, ![64, n]⟩) ![o, 0] ![8, n] inb) (ix2 c j) : EReal) = X (ix2 (feat k c) j) := by
  subst ho
  show X ((Rect.unit (s := ⟨2, ![64, n]⟩) ![8 * k.val, 0] ![8, n] inb).idx (ix2 c j)) = X (ix2 (feat k c) j)
  refine congrArg X (funext fun a => Fin.ext ?_)
  match a with
  | ⟨0, _⟩ => show 8 * k.val + 1 * c.val = 8 * k.val + c.val; omega
  | ⟨1, _⟩ => show 0 + 1 * j.val = j.val; omega

/-- One chunk's reduction, in the body's own spelling, at a block index `y`: the sum over the chunk's eight features of
    the squared positive part of `P[c, y₁] - Q[c, y₀]`. -/
theorem chunk_at (P : Vec Ideal S8x512 .f32) (Q : Vec Ideal S8x256 .f32) (y : S256x512.Idx) :
    (multiReduction (F := Ideal) .add [0] S256x512 (mulf (maximumf (subf (broadcastTo S8x256x512 (shapeCast S8x1x512 (shapeCast S8x512 P shapeCasts_S8x512_S8x512) shapeCasts_S8x512_S8x1x512) broadcasts_S8x1x512_S8x256x512) (broadcastTo S8x256x512 (shapeCast S8x256x1 (shapeCast S8x256 Q shapeCasts_S8x256_S8x256) shapeCasts_S8x256_S8x256x1) broadcasts_S8x256x1_S8x256x512)) (broadcast S8x256x512 (Scalar.ofBits .f32 0x00000000#32))) (maximumf (subf (broadcastTo S8x256x512 (shapeCast S8x1x512 (shapeCast S8x512 P shapeCasts_S8x512_S8x512) shapeCasts_S8x512_S8x1x512) broadcasts_S8x1x512_S8x256x512) (broadcastTo S8x256x512 (shapeCast S8x256x1 (shapeCast S8x256 Q shapeCasts_S8x256_S8x256) shapeCasts_S8x256_S8x256x1) broadcasts_S8x256x1_S8x256x512)) (broadcast S8x256x512 (Scalar.ofBits .f32 0x00000000#32)))) 0x00000000#32 reduces_S8x256x512_S256x512 (.inl rfl) rfl) y
      = ∑ c : Fin 8, sqPos (P (ix2 c (y 1))) (Q (ix2 c (y 0))) := by
  obtain ⟨p, q, rfl⟩ : ∃ (p : Fin 256) (q : Fin 512), y = ix2 p q := ⟨y 0, y 1, eq_ix2 y⟩
  exact chunk_apply P Q _ _ _ _ _ _ _ _ _ p q

/-- The block as one function of the body's sixteen loads, read at `(p, q)`: zero plus the eight chunk sums, added one after
    the other. (Stated over arbitrary arrays of the loads' shapes; the body's loads are put in afterwards.) -/
theorem loads_entry (P0 : Vec Ideal S8x512 .f32) (P1 : Vec Ideal S8x256 .f32) (P2 : Vec Ideal S8x512 .f32) (P3 : Vec Ideal S8x256 .f32) (P4 : Vec Ideal S8x512 .f32) (P5 : Vec Ideal S8x256 .f32) (P6 : Vec Ideal S8x512 .f32) (P7 : Vec Ideal S8x256 .f32) (P8 : Vec Ideal S8x512 .f32) (P9 : Vec Ideal S8x256 .f32) (P10 : Vec Ideal S8x512 .f32) (P11 : Vec Ideal S8x256 .f32) (P12 : Vec Ideal S8x512 .f32) (P13 : Vec Ideal S8x256 .f32) (P14 : Vec Ideal S8x512 .f32) (P15 : Vec Ideal S8x256 .f32) (p : Fin 256) (q : Fin 512) :
    Cert.KernelIdeal.Value.E2 P0 P1 P2 P3 P4 P5 P6 P7 P8 P9 P10 P11 P12 P13 P14 P15 (ix2 p q)
      = 0 + (∑ c : Fin 8, sqPos (P0 (ix2 c q)) (P1 (ix2 c p)))
      + (∑ c : Fin 8, sqPos (P2 (ix2 c q)) (P3 (ix2 c p)))
      + (∑ c : Fin 8, sqPos (P4 (ix2 c q)) (P5 (ix2 c p)))
      + (∑ c : Fin 8, sqPos (P6 (ix2 c q)) (P7 (ix2 c p)))
      + (∑ c : Fin 8, sqPos (P8 (ix2 c q)) (P9 (ix2 c p)))
      + (∑ c : Fin 8, sqPos (P10 (ix2 c q)) (P11 (ix2 c p)))
      + (∑ c : Fin 8, sqPos (P12 (ix2 c q)) (P13 (ix2 c p)))
      + (∑ c : Fin 8, sqPos (P14 (ix2 c q)) (P15 (ix2 c p))) := by
  simp only [Cert.KernelIdeal.Value.E2]
  rw [chunk_at P0 P1, chunk_at P2 P3, chunk_at P4 P5, chunk_at P6 P7, chunk_at P8 P9, chunk_at P10 P11, chunk_at P12 P13, chunk_at P14 P15]
  rw [Ideal.ofBits_def, Ideal.ofBits_zero_f32]
  rfl

/-- Entry `(p, q)` of the block the body leaves, from its two input blocks. -/
theorem block_entry (x0 : Vec Ideal S64x256 .f32) (x1 : Vec Ideal S64x512 .f32) (p : Fin 256) (q : Fin 512) :
    out0_2 x0 x1 (ix2 p q) = 0 + ∑ d : Fin 64, sqPos (x1 (ix2 d q)) (x0 (ix2 d p)) := by
  unfold out0_2
  rw [Cert.KernelIdeal.Value.canon2_eq]
  refine (loads_entry _ _ _ _ _ _ _ _ _ _ _ _ _ _ _ _ p q).trans ?_
  rw [← chunks_eq_sum (fun d => sqPos (x1 (ix2 d q)) (x0 (ix2 d p)))]
  exact
(congrArg₂ (· + ·) (congrArg₂ (· + ·) (congrArg₂ (· + ·) (congrArg₂ (· + ·) (congrArg₂ (· + ·) (congrArg₂ (· + ·) (congrArg₂ (· + ·) (congrArg₂ (· + ·) rfl
      (Finset.sum_congr rfl fun c _ => congrArg₂ sqPos (ld_rows x1 0 rfl _ c q) (ld_rows x0 0 rfl _ c p)))
      (Finset.sum_congr rfl fun c _ => congrArg₂ sqPos (ld_rows x1 1 rfl _ c q) (ld_rows x0 1 rfl _ c p)))
      (Finset.sum_congr rfl fun c _ => congrArg₂ sqPos (ld_rows x1 2 rfl _ c q) (ld_rows x0 2 rfl _ c p)))
      (Finset.sum_congr rfl fun c _ => congrArg₂ sqPos (ld_rows x1 3 rfl _ c q) (ld_rows x0 3 rfl _ c p)))
      (Finset.sum_congr rfl fun c _ => congrArg₂ sqPos (ld_rows x1 4 rfl _ c q) (ld_rows x0 4 rfl _ c p)))
      (Finset.sum_congr rfl fun c _ => congrArg₂ sqPos (ld_rows x1 5 rfl _ c q) (ld_rows x0 5 rfl _ c p)))
      (Finset.sum_congr rfl fun c _ => congrArg₂ sqPos (ld_rows x1 6 rfl _ c q) (ld_rows x0 6 rfl _ c p)))
      (Finset.sum_congr rfl fun c _ => congrArg₂ sqPos (ld_rows x1 7 rfl _ c q) (ld_rows x0 7 rfl _ c p)))

end Cert.KernelIdeal.BlockEntry

end
-- ==== Proof.LibAfterAppend.lean ====
/-
  The contents after a line of host operations run in stretches.

  The buffer contents after a list of host operations are a fold: each operation rewrites the buffers it writes, in order.
  So the contents after a concatenation are the contents after the second list, from the contents after the first; and the
  contents after a list of stretches joined into one line are the stretches' contents composed, first stretch innermost.
-/
import Idealize.ShloMosaic.Lib.StableHlo.Run

noncomputable section

namespace Cert.AfterAppend

open Idealize.ShloMosaic Idealize.ShloMosaic.StableHlo

variable {τ : Topo} {sig : RefSig} {Val : EltTy → Type}

/-- The contents after `l₁ ++ l₂` are the contents after `l₂`, from the contents after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The contents after a first stretch followed by the rest of the stretches joined. -/
theorem after_flatten_cons (l : List (HloOp τ sig Val)) (L : List (List (HloOp τ sig Val))) (V : Valuation τ sig Val) :
    after (List.flatten (l :: L)) V = after (List.flatten L) (after l V) := by
  rw [List.flatten_cons, after_append]

/-- No stretches: the contents are unchanged. -/
theorem after_flatten_nil (V : Valuation τ sig Val) : after (List.flatten ([] : List (List (HloOp τ sig Val)))) V = V := rfl

end Cert.AfterAppend

end
-- ==== Proof.HostHead.lean ====
/-
  The two arrays the pairwise region reads are the transposes of the two projections.

  Before the region the program projects each argument array through the small network — a product with the first weight
  matrix, a bias, a positive part; three times the shared hidden layer; the output layer — and transposes each projection,
  so that the features lie along the leading axis. The network is the same composition of operations, operand for operand, as
  the one the reference applies; the two differ only in the precision the products ask for, which chooses roundings and which
  the exact product does not read. So the array the region finds under its first window is the transpose of the reference's
  projection of the first argument, and the one under its second window the transpose of its projection of the second.
-/
import proofs.«180766_j28295244546074_2_alg».proof.Proof.Gen.KernelIdeal.Frame
import proofs.«180766_j28295244546074_2_alg».proof.Proof.Gen.ReferenceIdeal.Read
import proofs.«180766_j28295244546074_2_alg».proof.Proof.LibAfterAppend
import Idealize.ShloMosaic.Lib.StableHlo.Run
import Idealize.ShloMosaic.PureOps.Ideal

set_option maxRecDepth 16384

noncomputable section

namespace Cert.KernelIdeal.HostHead

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- Under the region's first window: the transpose of the projection of the first argument. -/
theorem first_window_array (c : Dev nD) :
    (Gen.V (F := Ideal) m c main_v60 : S64x2048.Idx → EReal)
      = transpose S64x2048 [1, 0]
          (Cert.ReferenceIdeal.Read.val_main_v29 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
          transposes_S2048x64_S64x2048_1_0 := by
  dsimp only [Gen.V]
  simp only [Cert.AfterAppend.after_flatten_cons, Cert.AfterAppend.after_flatten_nil]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20]
  after_results_simp
  rfl

/-- Under the region's second window: the transpose of the projection of the second argument. -/
theorem second_window_array (c : Dev nD) :
    (Gen.V (F := Ideal) m c main_v61 : S64x2048.Idx → EReal)
      = transpose S64x2048 [1, 0]
          (Cert.ReferenceIdeal.Read.val_main_v59 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
          transposes_S2048x64_S64x2048_1_0 := by
  dsimp only [Gen.V]
  simp only [Cert.AfterAppend.after_flatten_cons, Cert.AfterAppend.after_flatten_nil]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20]
  after_results_simp
  rfl

end Cert.KernelIdeal.HostHead

end
-- ==== Proof.FinalArray.lean ====
/-
  From the blocks to the whole result array.

  The region runs over a grid of 8 × 4 points. At point `(i, j)` it reads columns `256·i … 256·i + 255` of the transposed
  first projection, columns `512·j … 512·j + 511` of the transposed second projection — all 64 feature rows of each — and
  writes block `(i, j)`, of 256 × 512 entries, of the result. Entry `(p, q)` of that block is the pairwise stage at
  `(256·i + p, 512·j + q)`: the body's entry of its two input blocks, each input block read where the window puts it, and each
  transposed array read as the projection with its coordinates exchanged. The 32 blocks tile the 2048 × 2048 result — entry
  `(n, m)` lies in the block of the point `(n / 256, m / 512)` — so the array after the run is the pairwise stage of the two
  projections, whole.
-/
import proofs.«180766_j28295244546074_2_alg».proof.Proof.Gen.KernelIdeal.Value
import proofs.«180766_j28295244546074_2_alg».proof.Proof.BlockEntry
import proofs.«180766_j28295244546074_2_alg».proof.Proof.HostHead
import Idealize.ShloMosaic.Lib.Pipeline.Value
import Idealize.ShloMosaic.Lib.ValueIdx

set_option maxRecDepth 16384

noncomputable section

open scoped BigOperators

namespace Cert.KernelIdeal.FinalArray

open Cert.KernelIdeal Cert.KernelIdeal.Gen Cert.KernelIdeal.Value Cert.PairSq
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The projection of the first argument, as the reference computes it, of this program's argument arrays. -/
abbrev projFirst (c : Dev nD) : S2048x64.Idx → EReal :=
  Cert.ReferenceIdeal.Read.val_main_v29 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The projection of the second argument. -/
abbrev projSecond (c : Dev nD) : S2048x64.Idx → EReal :=
  Cert.ReferenceIdeal.Read.val_main_v59 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- What the result array ends holding: the pairwise stage of the two projections. -/
def result (c : Dev nD) : S2048x2048.Idx → EReal := pairSq (projFirst m c) (projSecond m c)

/-- A transposed projection at `(d, n)` is the projection at `(n, d)`. -/
theorem transpose_read (X : S2048x64.Idx → EReal) (d : Fin 64) (n : Fin 2048) :
    transpose S64x2048 [1, 0] X transposes_S2048x64_S64x2048_1_0 (ix2 d n) = X (ix2 n d) :=
  transpose_apply [1, 0] X transposes_S2048x64_S64x2048_1_0 (ix2 d n) (ix2 n d) (fun b => match b with
    | ⟨0, _⟩ => rfl
    | ⟨1, _⟩ => rfl)

/-- The printed index maps, decided over the grid: both input windows stay on feature-block 0; the first moves with the
    output's row block, the second with its column block; the output's block indices stay in their ranges. -/
theorem idx_facts : ∀ t : Fin cfg0.N, win0_0.index t (0 : Fin 2) = 0
    ∧ win0_0.index t (1 : Fin 2) = win0_2.index t (0 : Fin 2)
    ∧ win0_1.index t (0 : Fin 2) = 0
    ∧ win0_1.index t (1 : Fin 2) = win0_2.index t (1 : Fin 2)
    ∧ win0_2.index t (0 : Fin 2) ≤ 7
    ∧ win0_2.index t (1 : Fin 2) ≤ 3 :=
  (by decide +kernel : ∀ t : Fin grid0.N, _)

/-- Every block of the result is some point's. -/
theorem idx_onto : ∀ (q0 : Fin 8) (q1 : Fin 4), ∃ t : Fin cfg0.N, win0_2.index t = ![q0.val, q1.val] :=
  (by decide +kernel : ∀ (q0 : Fin 8) (q1 : Fin 4), ∃ t : Fin grid0.N, win0_2.index t = ![q0.val, q1.val])

/-- What point `t` writes back is block `t` of the pairwise stage of the two projections. -/
theorem flushed_eq (c : Dev nD) (t : Fin cfg0.N) :
    (dats m 0 c).flushed 2 t = ((cfg0.win 2).blk t).view.read (Elt Ideal) (result m c) := by
  show (cfg0.win 2).cut (grid0.coords t) ((dats m 0 c).after 2 t) = _
  rw [after0_2]
  funext y
  obtain ⟨p, q, rfl⟩ : ∃ (p : Fin 256) (q : Fin 512), y = ix2 p q := ⟨y 0, y 1, eq_ix2 y⟩
  refine (Cert.KernelIdeal.BlockEntry.block_entry (iblk m c 0 t) (iblk m c 1 t) p q).trans ?_
  obtain ⟨e0, e1, e2, e3, e4, e5⟩ := idx_facts t
  show 0 + ∑ d : Fin 64, sqPos (V m c main_v61 (((cfg0.win 1).blk t).view.emb (ix2 d q)))
        (V m c main_v60 (((cfg0.win 0).blk t).view.emb (ix2 d p)))
      = 0 + ∑ d : Fin 64, sqPos (projSecond m c (ix2 ((((cfg0.win 2).blk t).view.emb (ix2 p q)) 1) d))
        (projFirst m c (ix2 ((((cfg0.win 2).blk t).view.emb (ix2 p q)) 0) d))
  refine congrArg (0 + ·) (Finset.sum_congr rfl fun d _ => ?_)
  have h1 : ((cfg0.win 1).blk t).view.emb (ix2 d q) = ix2 d ((((cfg0.win 2).blk t).view.emb (ix2 p q)) 1) := by
    funext a; apply Fin.ext
    match a with
    | ⟨0, _⟩ => show win0_1.index t (0 : Fin 2) * 64 + 1 * d.val = d.val; omega
    | ⟨1, _⟩ => show win0_1.index t (1 : Fin 2) * 512 + 1 * q.val = win0_2.index t (1 : Fin 2) * 512 + 1 * q.val; omega
  have h0 : ((cfg0.win 0).blk t).view.emb (ix2 d p) = ix2 d ((((cfg0.win 2).blk t).view.emb (ix2 p q)) 0) := by
    funext a; apply Fin.ext
    match a with
    | ⟨0, _⟩ => show win0_0.index t (0 : Fin 2) * 64 + 1 * d.val = d.val; omega
    | ⟨1, _⟩ => show win0_0.index t (1 : Fin 2) * 256 + 1 * p.val = win0_2.index t (0 : Fin 2) * 256 + 1 * p.val; omega
  refine congrArg₂ sqPos ?_ ?_
  · exact (congrArg (V m c main_v61) h1).trans
      ((congrFun (Cert.KernelIdeal.HostHead.second_window_array m c) _).trans (transpose_read _ d _))
  · exact (congrArg (V m c main_v60) h0).trans
      ((congrFun (Cert.KernelIdeal.HostHead.first_window_array m c) _).trans (transpose_read _ d _))

/-- An index of the result is in point `t`'s block iff each coordinate is in the block's range on its axis. -/
theorem mem_blk (t : Fin cfg0.N) (i : S2048x2048.Idx) :
    i ∈ ((cfg0.win 2).blk t).view.set ↔ ∀ a : Fin 2, win0_2.index t a * S256x512.size a ≤ (i a).val
      ∧ (i a).val < win0_2.index t a * S256x512.size a + S256x512.size a := by
  show i ∈ ((View.whole main_v62).slice (win0_2.rect t)).set ↔ _
  rw [View.set_slice_whole, Rect.mem_set_unit]
  exact Iff.rfl

/-- The blocks tile the result: entry `(n, m)` is in the block of the point with row block `n / 256` and column block
    `m / 512`, and every point writes its block back. -/
theorem cover (i : S2048x2048.Idx) :
    ∃ t : Fin cfg0.N, (cfg0.win 2).flush t = true ∧ i ∈ ((cfg0.win 2).blk t).view.set := by
  have hi0 : (i 0).val < 2048 := (i 0).isLt
  have hi1 : (i 1).val < 2048 := (i 1).isLt
  obtain ⟨t, ht⟩ := idx_onto ⟨(i 0).val / 256, by omega⟩ ⟨(i 1).val / 512, by omega⟩
  have q0 : win0_2.index t (0 : Fin 2) = (i 0).val / 256 := congrFun ht 0
  have q1 : win0_2.index t (1 : Fin 2) = (i 1).val / 512 := congrFun ht 1
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 512 ≤ (i 1).val ∧ (i 1).val < win0_2.index t (1 : Fin 2) * 512 + 512
    omega

/-- The result array after the run: the pairwise stage of the two projections. -/
theorem final (c : Dev nD) : (dats m 0 c).arrAt 2 cfg0.N = result m c :=
  (dats m 0 c).arrAt_eq_of_cover 2 (result m c) (fun t _ => flushed_eq m c t) cover

/-- The program's run, read: the result array at the pairwise stage of the two projections, the arguments unchanged. -/
theorem run : θ_run defs (onTc (τ := τ) (main (F := Ideal))) ⟨m, fun _ => 0, ρ⟩ fun r => ∀ c : Dev nD,
      r.2.mem ((c : Thread nD τ).loc main_v62) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.FinalArray

end
-- ==== Proof.RefPairwise.lean ====
/-
  The reference's result is the pairwise stage of its two projected arrays.

  Entry `(n, m)` of the reference's result is an initial zero plus the sum over the feature `k` of the square of the positive
  part of a difference. The minuend is `ty` given a leading unit axis and repeated along it: at `(n, m, k)` it reads
  `ty[m, k]`. The subtrahend is `tx` given a middle unit axis and repeated along it: at `(n, m, k)` it reads `tx[n, k]`.
  So the entry is `0 + ∑ k, (max (ty[m, k] - tx[n, k]) 0)²`, the specification at `(n, m)`, with `tx` and `ty` the two
  projections as the reference computes them from its arguments.
-/
import proofs.«180766_j28295244546074_2_alg».proof.Proof.Gen.ReferenceIdeal.Read
import proofs.«180766_j28295244546074_2_alg».proof.Proof.PairwiseSpec
import Idealize.ShloMosaic.PureOps.Ideal.Laws
import Idealize.ShloMosaic.Lib.ValueIdx

noncomputable section

open scoped BigOperators

namespace Cert.ReferenceIdeal.RefValue

open Cert.ReferenceIdeal Cert.ReferenceIdeal.Read Cert.PairSq
open Idealize.ShloMosaic Idealize.ShloMosaic.ValueIdx

/-- Through its two repetitions the minuend at `(n, m, k)` reads the second projection at `(m, k)`. -/
theorem minuend_index (i : S2048x2048.Idx) (k : Fin 64) :
    idx_main_v60 (idx_main_v62 (idx_main_v67 i k)) = ix2 (i 1) k :=
  funext fun a => Fin.ext (by match a with | ⟨0, _⟩ => rfl | ⟨1, _⟩ => rfl)

/-- Through its two repetitions the subtrahend at `(n, m, k)` reads the first projection at `(n, k)`. -/
theorem subtrahend_index (i : S2048x2048.Idx) (k : Fin 64) :
    idx_main_v61 (idx_main_v63 (idx_main_v67 i k)) = ix2 (i 0) k :=
  funext fun a => Fin.ext (by match a with | ⟨0, _⟩ => rfl | ⟨1, _⟩ => rfl)

/-- The reference's result, as a function of its arguments, is the pairwise stage of the projection of `x0` and the
    projection of `x1`. -/
theorem reference_eq (x0 x1 : (⟨S2048x64, .f32⟩ : BufTy).Contents (Elt Ideal)) (x2 : (⟨S5x64, .f32⟩ : BufTy).Contents (Elt Ideal))
    (x3 : (⟨S5, .f32⟩ : BufTy).Contents (Elt Ideal)) (x4 : (⟨S5x5, .f32⟩ : BufTy).Contents (Elt Ideal))
    (x5 : (⟨S5, .f32⟩ : BufTy).Contents (Elt Ideal)) (x6 : (⟨S64x5, .f32⟩ : BufTy).Contents (Elt Ideal))
    (x7 : (⟨S64, .f32⟩ : BufTy).Contents (Elt Ideal)) :
    val_main_v67 (F := Ideal) x0 x1 x2 x3 x4 x5 x6 x7
      = pairSq (val_main_v29 (F := Ideal) x0 x2 x3 x4 x5 x6 x7) (val_main_v59 (F := Ideal) x1 x2 x3 x4 x5 x6 x7) := by
  funext i
  rw [val_main_v67_apply]
  show _ = 0 + ∑ d : Fin 64, sqPos (val_main_v59 (F := Ideal) x1 x2 x3 x4 x5 x6 x7 (ix2 (i 1) d))
      (val_main_v29 (F := Ideal) x0 x2 x3 x4 x5 x6 x7 (ix2 (i 0) d))
  refine congrArg₂ (· + ·) ?_ (Finset.sum_congr rfl fun k _ => ?_)
  · rw [val_main_cst_apply]
    exact Ideal.ofBits_zero_f32
  · rw [val_main_v66_apply, val_main_v65_apply, val_main_v64_apply, val_main_v62_apply, val_main_v60_apply,
      val_main_v63_apply, val_main_v61_apply, val_main_call10_v0_apply, val_main_call10_cst_apply,
      minuend_index, subtrahend_index]
    show max (_ - _) (Ideal.ofBits .f32 0x00000000#32) * max (_ - _) (Ideal.ofBits .f32 0x00000000#32) = _
    rw [Ideal.ofBits_zero_f32]
    rfl

end Cert.ReferenceIdeal.RefValue

end
-- ==== Proof.lean ====
/-
  A pairwise squared-hinge distance after a small shared network, computed in blocks, against the same quantity computed whole.

  Both programs first project each of two argument arrays `x`, `y` (2048 rows of 64 features) through one small network
  with shared weights — a product with the first weight matrix, a bias and a positive part; the shared hidden layer three
  times; the output layer — giving `tx` and `ty`, 2048 × 64 each. Both then form, for every pair of rows `(n, m)`,
      out[n, m] = ∑ d < 64, (max (ty[m, d] - tx[n, d]) 0)².
  Read on the extended reals the two projections are one function of the arguments: the programs apply the same operations
  to the same operands, and differ only in the precision their matrix products request, which selects roundings and which
  the exact product ignores.

  The reference forms the 2048 × 2048 × 64 array of differences, takes positive parts and squares, and sums the last axis
  into an initial zero. The other program transposes the projections, so that the features lie along the leading axis, and
  runs a region over an 8 × 4 grid: point `(i, j)` reads 256 columns of `txᵀ` and 512 columns of `tyᵀ`, walks the 64
  features in eight chunks of eight — each chunk's squared positive parts summed over the chunk and added to an
  accumulator that starts at zero — and writes block `(i, j)` of the result. The blocks tile the result, so its array ends
  holding, at `(n, m)`, zero plus the eight chunk sums. Addition of extended reals is commutative and associative with
  neutral element 0, at the infinities too; so the chunk sums regroup into the one sum over the 64 features, and the two
  results are equal entry by entry, with nothing assumed finite.

  The frames: each program, run from any memory, terminates without a fault and leaves its arguments as they were.
-/
import proofs.«180766_j28295244546074_2_alg».proof.Defs
import proofs.«180766_j28295244546074_2_alg».proof.Proof.Gen.Kernel
import proofs.«180766_j28295244546074_2_alg».proof.Proof.Gen.Kernel.Skeleton
import proofs.«180766_j28295244546074_2_alg».proof.Proof.Gen.Kernel.Launch
import proofs.«180766_j28295244546074_2_alg».proof.Proof.Gen.Kernel.Points
import proofs.«180766_j28295244546074_2_alg».proof.Proof.Gen.Kernel.Frame
import proofs.«180766_j28295244546074_2_alg».proof.Proof.Gen.KernelIdeal
import proofs.«180766_j28295244546074_2_alg».proof.Proof.Gen.KernelIdeal.Skeleton
import proofs.«180766_j28295244546074_2_alg».proof.Proof.Gen.KernelIdeal.Launch
import proofs.«180766_j28295244546074_2_alg».proof.Proof.Gen.KernelIdeal.Points
import proofs.«180766_j28295244546074_2_alg».proof.Proof.Gen.KernelIdeal.Frame
import proofs.«180766_j28295244546074_2_alg».proof.Proof.Gen.ReferenceIdeal
import proofs.«180766_j28295244546074_2_alg».proof.Proof.Gen.Pre_finite_inputs
import proofs.«180766_j28295244546074_2_alg».proof.Proof.Gen.KernelIdeal.Value
import proofs.«180766_j28295244546074_2_alg».proof.Proof.Gen.ReferenceIdeal.Run
import proofs.«180766_j28295244546074_2_alg».proof.Proof.Gen.ReferenceIdeal.Read
import proofs.«180766_j28295244546074_2_alg».proof.Proof.FinalArray
import proofs.«180766_j28295244546074_2_alg».proof.Proof.RefPairwise
import Idealize.ShloMosaic.Adequacy
import Idealize.ShloMosaic.Init

noncomputable section

namespace Cert.Proof

open Idealize.ShloMosaic Idealize.ShloMosaic.TcCoe Idealize.SL.Sem

/-- The word-level program runs to the end without a fault and keeps its arguments. -/
theorem frame_kernel : Cert.frame_Kernel := fun m ρ _ => Cert.Kernel.Gen.frame m ρ

/-- So does the program read on the extended reals. -/
theorem frame_kernel_ideal : Cert.frame_KernelIdeal := fun m ρ _ => Cert.KernelIdeal.Gen.frame m ρ

/-- The reference's run, with its result dropped, is its frame. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the arguments both programs end with the pairwise stage of the two projections in their
    result arrays: the blockwise program by its blocks tiling the result, the reference by reading its operations one at a
    time. -/
theorem algebraic : Cert.algebraic_KernelIdeal_ReferenceIdeal := by
  intro m ρ m' ρ' _ hagree
  refine ⟨fun c => Cert.KernelIdeal.FinalArray.result m c, Cert.KernelIdeal.FinalArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq, Cert.ReferenceIdeal.RefValue.reference_eq,
    (hagree c).1, (hagree c).2.1, (hagree c).2.2.1, (hagree c).2.2.2.1, (hagree c).2.2.2.2.1, (hagree c).2.2.2.2.2.1, (hagree c).2.2.2.2.2.2.1, (hagree c).2.2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
